-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S2x200000 : Shape := ⟨2, ![2, 200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x64 .f32) (main_arg4 : FVec F S64 .f32) (main_arg5 : IVec S2x1600000 32) (main_arg6 : IVec S2x200000 32) (main_arg7 : IVec S2x200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S2x200000 : Shape := ⟨2, ![2, 200000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S1x128 : Shape := ⟨2, ![1, 128]⟩
abbrev S100000x64 : Shape := ⟨2, ![100000, 64]⟩
abbrev S2000x64 : Shape := ⟨2, ![2000, 64]⟩
abbrev S1700000x64 : Shape := ⟨2, ![1700000, 64]⟩
abbrev S1x64 : Shape := ⟨2, ![1, 64]⟩
abbrev S2x400000 : Shape := ⟨2, ![2, 400000]⟩
abbrev S1x400000 : Shape := ⟨2, ![1, 400000]⟩
abbrev S400000 : Shape := ⟨1, ![400000]⟩
abbrev S400000x1 : Shape := ⟨2, ![400000, 1]⟩
abbrev S400000x64 : Shape := ⟨2, ![400000, 64]⟩
abbrev S8000x64 : Shape := ⟨2, ![8000, 64]⟩
abbrev S8000x1 : Shape := ⟨2, ![8000, 1]⟩
abbrev S8000 : Shape := ⟨1, ![8000]⟩

abbrev nBuf : Space → Nat
  | .hbm => 111
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S2x1600000, .i32⟩
  | .hbm, ⟨6, _⟩ => ⟨S2x200000, .i32⟩
  | .hbm, ⟨7, _⟩ => ⟨S2x200000, .i32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x64, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x64, .f32⟩
  | .hbm, ⟨77, _⟩ => ⟨S1700000x1, .f32⟩
  | .hbm, ⟨78, _⟩ => ⟨S1700000x64, .f32⟩
  | .hbm, ⟨79, _⟩ => ⟨S1700000x64, .f32⟩
  | .hbm, ⟨80, _⟩ => ⟨S_, .f32⟩
  | .hbm, ⟨81, _⟩ => ⟨S100000x64, .f32⟩
  | .hbm, ⟨82, _⟩ => ⟨S1700000x1, .i32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S2x400000, .i32⟩
  | .hbm, ⟨87, _⟩ => ⟨S1x400000, .i32⟩
  | .hbm, ⟨88, _⟩ => ⟨S400000, .i32⟩
  | .hbm, ⟨89, _⟩ => ⟨S_, .i32⟩
  | .hbm, ⟨90, _⟩ => ⟨S400000, .i32⟩
  | .hbm, ⟨91, _⟩ => ⟨S400000, .i1⟩
  | .hbm, ⟨92, _⟩ => ⟨S_, .i32⟩
  | .hbm, ⟨93, _⟩ => ⟨S400000, .i32⟩
  | .hbm, ⟨94, _⟩ => ⟨S400000, .i32⟩
  | .hbm, ⟨95, _⟩ => ⟨S400000, .i32⟩
  | .hbm, ⟨96, _⟩ => ⟨S400000x1, .i32⟩
  | .hbm, ⟨97, _⟩ => ⟨S400000x64, .f32⟩
  | .hbm, ⟨98, _⟩ => ⟨S1x400000, .i32⟩
  | .hbm, ⟨99, _⟩ => ⟨S400000, .i32⟩
  | .hbm, ⟨100, _⟩ => ⟨S_, .i32⟩
  | .hbm, ⟨101, _⟩ => ⟨S400000, .i32⟩
  | .hbm, ⟨102, _⟩ => ⟨S400000, .i1⟩
  | .hbm, ⟨103, _⟩ => ⟨S_, .i32⟩
  | .hbm, ⟨104, _⟩ => ⟨S400000, .i32⟩
  | .hbm, ⟨105, _⟩ => ⟨S400000, .i32⟩
  | .hbm, ⟨106, _⟩ => ⟨S400000, .i32⟩
  | .hbm, ⟨107, _⟩ => ⟨S400000x1, .i32⟩
  | .hbm, ⟨108, _⟩ => ⟨S400000x64, .f32⟩
  | .hbm, ⟨109, _⟩ => ⟨S400000x1, .f32⟩
  | .hbm, ⟨110, _⟩ => ⟨S400000, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | .local _ .vmem, ⟨20, _⟩ => ⟨S8000x64, .f32⟩
  | .local _ .vmem, ⟨21, _⟩ => ⟨S8000x64, .f32⟩
  | .local _ .vmem, ⟨22, _⟩ => ⟨S8000x64, .f32⟩
  | .local _ .vmem, ⟨23, _⟩ => ⟨S8000x64, .f32⟩
  | .local _ .vmem, ⟨24, _⟩ => ⟨S8000x1, .f32⟩
  | .local _ .vmem, ⟨25, _⟩ => ⟨S8000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_14 : Ref sig .tc := ⟨.hbm, 100, rfl⟩
abbrev main_v74 : Ref sig .tc := ⟨.hbm, 101, rfl⟩
abbrev main_v75 : Ref sig .tc := ⟨.hbm, 102, rfl⟩
abbrev main_c_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  concatenates_S2x200000_S2x200000_S2x400000_d1 : Shape.Concatenates [S2x200000, S2x200000] S2x400000 1
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  slices_S2x400000_S1x400000_1_0 : S2x400000.Slices ![1, 0] S1x400000
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  reduces_S8000x64_S8000 : S8000x64.Reduces [1] S8000
  shapeCasts_S8000_S8000x1 : S8000.ShapeCasts S8000x1
  inb_S8000x1_S8000x1_0_0 : ∀ a, (![0, 0] : Fin 2 → Nat) a + S8000x1.size a ≤ S8000x1.size a
  h_S8000x1 : 0 < S8000x1.numel
  shapeCasts_S400000x1_S400000 : S400000x1.ShapeCasts S400000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S400000x1_S400000x64_1_0_n_n_0_1_164_wf : GatherDims.WF S100000x64 S400000x1 S400000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S400000x64.size a
  hwx4_0 : ∀ i : grid4.Coords, EltTy.bits .f32 = 32 ∨ (Rect.block (s := S400000x64) S8000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x64.size a ≤ S400000x64.size a
  hwx4_1 : ∀ i : grid4.Coords, EltTy.bits .f32 = 32 ∨ (Rect.block (s := S400000x64) S8000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x1.size a ≤ S400000x1.size a
  hwx4_2 : ∀ i : grid4.Coords, EltTy.bits .f32 = 32 ∨ (Rect.block (s := S400000x1) S8000x1.size (cc4_transform_2 i) (hinb4_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S400000x1_S400000x64_1_0_n_n_0_1_164 : GatherDims S100000x64 S400000x1 S400000x64 where
  offsetDims := [1]
  collapsedSliceDims := [0]
  operandBatchingDims := []
  startIndicesBatchingDims := []
  startIndexMap := [0]
  indexVectorDim := 1
  sliceSizes := ![1, 64]
  wf := gather_S100000x64_S400000x1_S400000x64_1_0_n_n_0_1_164_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v71) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S8000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v81) S8000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S2x200000 : Shape := ⟨2, ![2, 200000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S2x400000 : Shape := ⟨2, ![2, 400000]⟩
abbrev S1x400000 : Shape := ⟨2, ![1, 400000]⟩
abbrev S400000 : Shape := ⟨1, ![400000]⟩
abbrev S400000x1 : Shape := ⟨2, ![400000, 1]⟩
abbrev S400000x64 : Shape := ⟨2, ![400000, 64]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S2x1600000, .i32⟩
  | .hbm, ⟨6, _⟩ => ⟨S2x200000, .i32⟩
  | .hbm, ⟨7, _⟩ => ⟨S2x200000, .i32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x1, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S2x400000, .i32⟩
  | .hbm, ⟨92, _⟩ => ⟨S1x400000, .i32⟩
  | .hbm, ⟨93, _⟩ => ⟨S400000, .i32⟩
  | .hbm, ⟨94, _⟩ => ⟨S_, .i32⟩
  | .hbm, ⟨95, _⟩ => ⟨S400000, .i32⟩
  | .hbm, ⟨96, _⟩ => ⟨S400000, .i1⟩
  | .hbm, ⟨97, _⟩ => ⟨S_, .i32⟩
  | .hbm, ⟨98, _⟩ => ⟨S400000, .i32⟩
  | .hbm, ⟨99, _⟩ => ⟨S400000, .i32⟩
  | .hbm, ⟨100, _⟩ => ⟨S400000, .i32⟩
  | .hbm, ⟨101, _⟩ => ⟨S400000x1, .i32⟩
  | .hbm, ⟨102, _⟩ => ⟨S400000x64, .f32⟩
  | .hbm, ⟨103, _⟩ => ⟨S1x400000, .i32⟩
  | .hbm, ⟨104, _⟩ => ⟨S400000, .i32⟩
  | .hbm, ⟨105, _⟩ => ⟨S_, .i32⟩
  | .hbm, ⟨106, _⟩ => ⟨S400000, .i32⟩
  | .hbm, ⟨107, _⟩ => ⟨S400000, .i1⟩
  | .hbm, ⟨108, _⟩ => ⟨S_, .i32⟩
  | .hbm, ⟨109, _⟩ => ⟨S400000, .i32⟩
  | .hbm, ⟨110, _⟩ => ⟨S400000, .i32⟩
  | .hbm, ⟨111, _⟩ => ⟨S400000, .i32⟩
  | .hbm, ⟨112, _⟩ => ⟨S400000x1, .i32⟩
  | .hbm, ⟨113, _⟩ => ⟨S400000x64, .f32⟩
  | .hbm, ⟨114, _⟩ => ⟨S400000x64, .f32⟩
  | .hbm, ⟨115, _⟩ => ⟨S_, .f32⟩
  | .hbm, ⟨116, _⟩ => ⟨S400000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_12 : Ref sig .tc := ⟨.hbm, 94, rfl⟩
abbrev main_v68 : Ref sig .tc := ⟨.hbm, 95, rfl⟩
abbrev main_v69 : Ref sig .tc := ⟨.hbm, 96, rfl⟩
abbrev main_c_13 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_14 : Ref sig .tc := ⟨.hbm, 105, rfl⟩
abbrev main_v77 : Ref sig .tc := ⟨.hbm, 106, rfl⟩
abbrev main_v78 : Ref sig .tc := ⟨.hbm, 107, rfl⟩
abbrev main_c_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_16 : Ref sig .tc := ⟨.hbm, 115, rfl⟩
abbrev main_v85 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S2x200000_S2x200000_S2x400000_d1 : Shape.Concatenates [S2x200000, S2x200000] S2x400000 1
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  slices_S2x400000_S1x400000_1_0 : S2x400000.Slices ![1, 0] S1x400000
  reducesTo_S400000x64_S400000_d1 : S400000x64.ReducesTo [1] S400000
  h_S_ : 0 < S_.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S400000x1_S400000x64_1_0_n_n_0_1_164_wf : GatherDims.WF S100000x64 S400000x1 S400000x64 [1] [0] [] [0] [] 1 ![1, 64]

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S400000x1_S400000x64_1_0_n_n_0_1_164 : GatherDims S100000x64 S400000x1 S400000x64 where
  offsetDims := [1]
  collapsedSliceDims := [0]
  operandBatchingDims := []
  startIndicesBatchingDims := []
  startIndexMap := [0]
  indexVectorDim := 1
  sliceSizes := ![1, 64]
  wf := gather_S100000x64_S400000x1_S400000x64_1_0_n_n_0_1_164_wf

class Facts : Prop extends Facts₀ where

variable [Facts]
-- ==== Proof.KernelRun.lean ====
/-
  The idealized kernel's run with its result named.

  The program is twelve segments — seven stretches of host operations and five launches — and the contents of every buffer at
  each boundary between two segments are a fold through the program from the launch memory (`Gen.W0 … Gen.W12`): a host
  stretch applies its operations, a launch replaces its result array by what its write-backs leave and keeps every other
  buffer.  Run from any memory with zero counters, every weakly fair execution terminates without a fault with every
  unscoped buffer at the last boundary's contents `Gen.W12`; so the result buffer ends at `Gen.W12` of it, and each
  argument at its launch contents (no host operation and no launch writes an argument).
-/
import proofs.«141682_j76553497084655_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last boundary's
    contents and every argument as launched. -/
theorem run_named : θ_run defs (onTc (τ := τ) (main (F := F))) ⟨m, fun _ => 0, ρ⟩ (fun r => ∀ c : Dev nD,
      r.2.mem ((c.tc : Thread nD τ).loc main_v82) = W12 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v82 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Run

end
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.LibDenseLayers.lean ====
/-
  The dense pieces of a two-layer graph-convolution encoder and of its edge decoder, as index-by-index functions over
  the extended reals:

  * `project x w` — the feature projection `x · w`: entry `(n, f)` is `∑ k, x (n, k) · w (k, f)`;
  * `addRow a b` — the bias row `b` (shape `[1, N]`) added to every node's feature row;
  * `addRowClamp a b` — the same followed by the clamp at zero, `max (· ) 0`;
  * `rowDots u v` — one number per edge, the dot product `∑ k, u (e, k) · v (e, k)` of its two end points' features.

  The second half shows that the host operations a plain array program uses for these pieces — a `dot_general` with
  ordinary matrix-product dimension numbers, an addition of a twice-broadcast bias vector (clamped or not by a `maximum`
  with a broadcast zero), and a sum over the feature axis of an elementwise product — ARE these functions.  No law of
  arithmetic is needed beyond `0 + s = s`: the same sums and products appear on both sides, in the same order.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«141682_j76553497084655_1_alg».proof.Proof.LibPlainDot

noncomputable section

namespace Cert.Layers

open Idealize.ShloMosaic Idealize.ShloMosaic.ValueIdx

variable {M K N : Nat}

/-- The projection `x · w` of `M` feature rows of length `K` to length `N`. -/
def project (x : (⟨2, ![M, K]⟩ : Shape).Idx → EReal) (w : (⟨2, ![K, N]⟩ : Shape).Idx → EReal) :
    (⟨2, ![M, N]⟩ : Shape).Idx → EReal :=
  fun i => ∑ k : Fin K, x (ix2 (n0 := M) (i 0) k) * w (ix2 (n1 := N) k (i 1))

/-- The bias row `b` added to every row of `a`. -/
def addRow (a : (⟨2, ![M, N]⟩ : Shape).Idx → EReal) (b : (⟨2, ![1, N]⟩ : Shape).Idx → EReal) :
    (⟨2, ![M, N]⟩ : Shape).Idx → EReal :=
  fun i => a i + b (ix2 (n1 := N) (0 : Fin 1) (i 1))

/-- The bias row added to every row, then the clamp at zero. -/
def addRowClamp (a : (⟨2, ![M, N]⟩ : Shape).Idx → EReal) (b : (⟨2, ![1, N]⟩ : Shape).Idx → EReal) :
    (⟨2, ![M, N]⟩ : Shape).Idx → EReal :=
  fun i => max (a i + b (ix2 (n1 := N) (0 : Fin 1) (i 1))) 0

/-- Row by row, the dot product of `u`'s row with `v`'s. -/
def rowDots (u v : (⟨2, ![M, K]⟩ : Shape).Idx → EReal) : (⟨1, ![M]⟩ : Shape).Idx → EReal :=
  fun i => ∑ k : Fin K, u (ix2 (n0 := M) (i 0) k) * v (ix2 (n0 := M) (i 0) k)

theorem project_apply (x : (⟨2, ![M, K]⟩ : Shape).Idx → EReal) (w : (⟨2, ![K, N]⟩ : Shape).Idx → EReal) (p : Fin M) (q : Fin N) :
    project x w (ix2 p q) = ∑ k : Fin K, x (ix2 p k) * w (ix2 k q) := rfl

/-! ## The host's operations are these functions -/

/-- A host `dot_general` whose dimension numbers are the ordinary matrix product's is the projection. -/
theorem dotGeneral_eq_project (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32) :
    Host.dotGeneral d prec x w = project x w := by
  subst hd
  funext i
  obtain ⟨p, q, rfl⟩ : ∃ (p : Fin M) (q : Fin N), i = ix2 p q := ⟨i 0, i 1, eq_ix2 i⟩
  exact Cert.Lib.dotGeneral_plain_apply prec _ x w p q

/-- A bias vector broadcast to a row and then over all rows, read at `(p, q)`, is its entry `q`; so is the vector
    reshaped to a row and read at `(0, q)`. -/
theorem bias_bcast_apply (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) (p : Fin M) (q : Fin N) :
    broadcastInDim ⟨2, ![M, N]⟩ ![0, 1] h2 (broadcastInDim ⟨2, ![1, N]⟩ ![1] h1 b) (ix2 p q)
      = shapeCast ⟨2, ![1, N]⟩ b hc (ix2 (0 : Fin 1) q) := by
  rw [shapeCast_a_1a_apply b hc (0 : Fin 1) q]
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-- Adding the twice-broadcast bias vector is adding the bias row. -/
theorem addf_bias_eq_addRow (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 b))
      = addRow a (shapeCast ⟨2, ![1, N]⟩ b hc) := by
  funext i
  obtain ⟨p, q, rfl⟩ : ∃ (p : Fin M) (q : Fin N), i = ix2 p q := ⟨i 0, i 1, eq_ix2 i⟩
  show a (ix2 p q) + _ = a (ix2 p q) + shapeCast ⟨2, ![1, N]⟩ b hc (ix2 (0 : Fin 1) q)
  rw [bias_bcast_apply b h1 h2 hc p q]

/-- The clamp by a `maximum` with the broadcast zero constant of the biased features is `addRowClamp`. -/
theorem maximumf_bias_eq_addRowClamp (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = addRowClamp a (shapeCast ⟨2, ![1, N]⟩ b hc) := by
  rw [addf_bias_eq_addRow a b h1 h2 hc]
  funext i
  show max (addRow a _ i) (broadcastInDim ⟨2, ![M, N]⟩ ![] h0 (constant (F := Ideal) ⟨0, ![]⟩ .f32 0x00000000#32) i) = max (addRow a _ i) 0
  rw [broadcastInDim_apply ![] h0 _ i ix0 (fun a => a.elim0)]
  show max _ (Ideal.ofBits .f32 0x00000000#32) = _
  rw [Ideal.ofBits_zero_f32]

end Cert.Layers

end
-- ==== Proof.Layer1Project.lean ====
/-
  The first projection, `h₀ = x · W₁`, as the array the first launch leaves.

  The launch walks the 100000 nodes in 50 blocks of 2000 rows.  At block `t` the body multiplies the block's rows of `x`
  (rounded to a narrower float format first, which over the extended reals changes nothing) by the whole of `W₁`, into a zero
  accumulator, and stores the 2000 × 128 product; the block is written back to rows `2000 t … 2000 t + 1999` of the result.
  Entry `(p, q)` of block `t` is `∑ k, x (2000 t + p, k) · W₁ (k, q)` — the entry `(2000 t + p, q)` of `x · W₁` — and the 50 blocks
  tile the result, so the array ends holding `Layers.project x W₁`, whatever the buffers held when the launch was entered
  (`V`) apart from its two operands.
-/
import proofs.«141682_j76553497084655_1_alg».proof.Proof.Gen.KernelIdeal.Frame
import proofs.«141682_j76553497084655_1_alg».proof.Proof.LibDenseLayers

set_option maxRecDepth 16384

noncomputable section

namespace Cert.KernelIdeal.Layer1Project

open Cert.KernelIdeal Cert.KernelIdeal.Gen Idealize.ShloMosaic Idealize.ShloMosaic.TcCoe Idealize.SL.Sem
open Idealize.ShloMosaic.ValueIdx Idealize.ShloMosaic.Pipeline

variable (V : (c : Dev nD) → (b : Ref sig .tc) → Buf (Elt Ideal) ((c : Thread nD τ).loc b))

theorem origin : (![0, 0] : Fin 2 → Nat) = fun _ => 0 := funext fun a => by fin_cases a <;> rfl

/-- The block of rows a point reads and writes: block `t` on the row axis for `x` and for the result, the one block of `W₁`. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's product at an entry: the rounding of the operands is the identity and the accumulator starts at zero. -/
theorem product_apply (x0 : Vec Ideal S2000x128 .f32) (x1 : Vec Ideal S128x128 .f32) (p : Fin 2000) (q : Fin 128) :
    k0_pay1 x0 x1 (ix2 p q) = ∑ k : Fin 128, x0 (ix2 p k) * x1 (ix2 k q) := by
  unfold k0_pay1
  exact Cert.Lib.matmul_plain_zero_apply (M := 2000) (K := 128) (N := 128) none x0 x1 p q

/-- What point `t` writes back is block `t` of `x · W₁`. -/
theorem flushed_eq (c : Dev nD) (t : Fin cfg0.N) :
    (dat0 V c).flushed 2 t
      = ((cfg0.win 2).blk t).view.read (Elt Ideal) (Layers.project (M := 100000) (K := 128) (N := 128) (V c main_arg0) (V c main_arg1)) := by
  show (cfg0.win 2).cut (grid0.coords t) ((dat0 V c).after 2 t) = _
  rw [after0_2]
  unfold out0_2
  rw [View.canon_unit_zero origin]
  simp only [View.ld_unit_zero (S := S2000x128) origin, View.ld_unit_zero (S := S128x128) origin]
  obtain ⟨e0, e1, e2, e3, e4, e5⟩ := block_index t
  funext j
  obtain ⟨p, q, rfl⟩ : ∃ (p : Fin 2000) (q : Fin 128), j = ix2 p q := ⟨j 0, j 1, eq_ix2 j⟩
  show k0_pay1 (iblk0 V c 0 t) (iblk0 V c 1 t) (ix2 p q)
    = Layers.project (M := 100000) (K := 128) (N := 128) (V c main_arg0) (V c main_arg1) (((cfg0.win 2).blk t).view.emb (ix2 p q))
  refine (product_apply _ _ p q).trans ?_
  unfold Layers.project
  refine Finset.sum_congr rfl fun k _ => ?_
  have hx : iblk0 V c 0 t (ix2 p k) = V c main_arg0 (ix2 ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have hw : iblk0 V c 1 t (ix2 k q) = V c main_arg1 (ix2 k ((((cfg0.win 2).blk t).view.emb (ix2 p q)) 1)) := by
    show V c main_arg1 (((cfg0.win 1).blk t).view.emb (ix2 k q)) = _
    refine congrArg (V c main_arg1) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [hx, hw]

/-- An index of the result is in point `t`'s block iff each coordinate is in the block's range on its axis. -/
theorem mem_block (t : Fin cfg0.N) (i : S100000x128.Idx) :
    i ∈ ((cfg0.win 2).blk t).view.set
      ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- Row `r` of the result lies in block `r / 2000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := Fin.cast N_0.symm ⟨(i 0).val / 2000, by omega⟩
  have ht : t.val = (i 0).val / 2000 := rfl
  obtain ⟨e0, e1, e2, e3, e4, e5⟩ := block_index t
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The result array after the launch is `x · W₁` of the operand arrays as the launch found them. -/
theorem final (c : Dev nD) :
    (dat0 V c).arrAt 2 cfg0.N = Layers.project (M := 100000) (K := 128) (N := 128) (V c main_arg0) (V c main_arg1) :=
  (dat0 V c).arrAt_eq_of_cover 2 _ (fun t _ => flushed_eq V c t) covered

end Cert.KernelIdeal.Layer1Project

end
-- ==== Proof.Layer1Bias.lean ====
/-
  The first layer's bias and clamp, `h = max (agg + b₁) 0`, as the array the second launch leaves.

  The launch walks the 100000 nodes in 50 blocks of 2000 rows.  At block `t` the body adds the bias row (a `[1, 128]` array,
  the same one block at every point, broadcast over the 2000 rows) to the block's rows of the aggregated messages and takes the
  maximum with zero; the block is written back to the same rows of the result.  Entry `(p, q)` of block `t` is
  `max (agg (2000 t + p, q) + b (0, q)) 0`, and the 50 blocks tile the result, so the array ends holding
  `Layers.addRowClamp agg b` of the two operand arrays as the launch found them (`V`).
-/
import proofs.«141682_j76553497084655_1_alg».proof.Proof.Gen.KernelIdeal.Frame
import proofs.«141682_j76553497084655_1_alg».proof.Proof.LibDenseLayers

set_option maxRecDepth 16384

noncomputable section

namespace Cert.KernelIdeal.Layer1Bias

open Cert.KernelIdeal Cert.KernelIdeal.Gen Idealize.ShloMosaic Idealize.ShloMosaic.TcCoe Idealize.SL.Sem
open Idealize.ShloMosaic.ValueIdx Idealize.ShloMosaic.Pipeline

variable (V : (c : Dev nD) → (b : Ref sig .tc) → Buf (Elt Ideal) ((c : Thread nD τ).loc b))

theorem origin : (![0, 0] : Fin 2 → Nat) = fun _ => 0 := funext fun a => by fin_cases a <;> rfl

/-- The block a point reads and writes: block `t` on the row axis for the messages and for the result, the one block of the
    bias row. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's value at an entry: the block's entry plus the bias row's entry of that column, clamped at zero. -/
theorem biased_apply (x0 : Vec Ideal S2000x128 .f32) (x1 : Vec Ideal S1x128 .f32) (p : Fin 2000) (q : Fin 128) :
    k1_pay1 x0 x1 (ix2 p q) = max (x0 (ix2 p q) + x1 (ix2 (0 : Fin 1) q)) 0 := by
  unfold k1_pay1
  simp only [shapeCast_self]
  show max (x0 (ix2 p q) + broadcastTo S2000x128 x1 broadcasts_S1x128_S2000x128 (ix2 p q)) (Ideal.ofBits .f32 0x00000000#32) = _
  rw [broadcastTo_1b_ab_apply (a := 2000) (b := 128) x1 broadcasts_S1x128_S2000x128 p q, Ideal.ofBits_zero_f32]

/-- What point `t` writes back is block `t` of the biased, clamped messages. -/
theorem flushed_eq (c : Dev nD) (t : Fin cfg1.N) :
    (dat1 V c).flushed 2 t
      = ((cfg1.win 2).blk t).view.read (Elt Ideal) (Layers.addRowClamp (M := 100000) (N := 128) (V c main_v43) (V c main_v44)) := by
  show (cfg1.win 2).cut (grid1.coords t) ((dat1 V c).after 2 t) = _
  rw [after1_2]
  unfold out1_2
  rw [View.canon_unit_zero origin]
  simp only [View.ld_unit_zero (S := S2000x128) origin, View.ld_unit_zero (S := S1x128) origin]
  obtain ⟨e0, e1, e2, e3, e4, e5⟩ := block_index t
  funext j
  obtain ⟨p, q, rfl⟩ : ∃ (p : Fin 2000) (q : Fin 128), j = ix2 p q := ⟨j 0, j 1, eq_ix2 j⟩
  show k1_pay1 (iblk1 V c 0 t) (iblk1 V c 1 t) (ix2 p q)
    = Layers.addRowClamp (M := 100000) (N := 128) (V c main_v43) (V c main_v44) (((cfg1.win 2).blk t).view.emb (ix2 p q))
  refine (biased_apply _ _ p q).trans ?_
  unfold Layers.addRowClamp
  have ha : iblk1 V c 0 t (ix2 p q) = V c main_v43 (((cfg1.win 2).blk t).view.emb (ix2 p q)) := by
    show V c main_v43 (((cfg1.win 0).blk t).view.emb (ix2 p q)) = _
    refine congrArg (V c main_v43) (funext fun a => Fin.ext ?_)
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * q.val = win1_2.index t (1 : Fin 2) * 128 + 1 * q.val; omega
  have hb : iblk1 V c 1 t (ix2 (0 : Fin 1) q) = V c main_v44 (ix2 (0 : Fin 1) ((((cfg1.win 2).blk t).view.emb (ix2 p q)) 1)) := by
    show V c main_v44 (((cfg1.win 1).blk t).view.emb (ix2 (0 : Fin 1) q)) = _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [ha, hb]

/-- An index of the result is in point `t`'s block iff each coordinate is in the block's range on its axis. -/
theorem mem_block (t : Fin cfg1.N) (i : S100000x128.Idx) :
    i ∈ ((cfg1.win 2).blk t).view.set
      ↔ ∀ a : Fin 2, win1_2.index t a * S2000x128.size a ≤ (i a).val ∧ (i a).val < win1_2.index t a * S2000x128.size a + S2000x128.size a := by
  show i ∈ ((View.whole main_v45).slice (win1_2.rect t)).set ↔ _
  rw [View.set_slice_whole, Rect.mem_set_unit]
  exact Iff.rfl

/-- Row `r` of the result lies in block `r / 2000`. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  let t : Fin cfg1.N := Fin.cast N_1.symm ⟨(i 0).val / 2000, by omega⟩
  have ht : t.val = (i 0).val / 2000 := rfl
  obtain ⟨e0, e1, e2, e3, e4, e5⟩ := block_index t
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The result array after the launch is the biased, clamped messages of the operand arrays as the launch found them. -/
theorem final (c : Dev nD) :
    (dat1 V c).arrAt 2 cfg1.N = Layers.addRowClamp (M := 100000) (N := 128) (V c main_v43) (V c main_v44) :=
  (dat1 V c).arrAt_eq_of_cover 2 _ (fun t _ => flushed_eq V c t) covered

end Cert.KernelIdeal.Layer1Bias

end
-- ==== Proof.Layer2Project.lean ====
/-
  The second projection, `g = h · W₂`, as the array the third launch leaves.

  The launch walks the 100000 nodes in 50 blocks of 2000 rows.  At block `t` the body multiplies the block's rows of the first
  layer's output `h` (rounded to a narrower float format first, which over the extended reals changes nothing) by the whole of
  `W₂`, into a zero accumulator, and stores the 2000 × 64 product; the block is written back to rows `2000 t … 2000 t + 1999` of the
  result.  Entry `(p, q)` of block `t` is `∑ k, h (2000 t + p, k) · W₂ (k, q)`, and the 50 blocks tile the result, so the array ends
  holding `Layers.project h W₂` of the two operand arrays as the launch found them (`V`).
-/
import proofs.«141682_j76553497084655_1_alg».proof.Proof.Gen.KernelIdeal.Frame
import proofs.«141682_j76553497084655_1_alg».proof.Proof.LibDenseLayers

set_option maxRecDepth 16384

noncomputable section

namespace Cert.KernelIdeal.Layer2Project

open Cert.KernelIdeal Cert.KernelIdeal.Gen Idealize.ShloMosaic Idealize.ShloMosaic.TcCoe Idealize.SL.Sem
open Idealize.ShloMosaic.ValueIdx Idealize.ShloMosaic.Pipeline

variable (V : (c : Dev nD) → (b : Ref sig .tc) → Buf (Elt Ideal) ((c : Thread nD τ).loc b))

theorem origin : (![0, 0] : Fin 2 → Nat) = fun _ => 0 := funext fun a => by fin_cases a <;> rfl

/-- The block of rows a point reads and writes: block `t` on the row axis for `h` and for the result, the one block of `W₂`. -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's product at an entry: the rounding of the operands is the identity and the accumulator starts at zero. -/
theorem product_apply (x0 : Vec Ideal S2000x128 .f32) (x1 : Vec Ideal S128x64 .f32) (p : Fin 2000) (q : Fin 64) :
    k2_pay1 x0 x1 (ix2 p q) = ∑ k : Fin 128, x0 (ix2 p k) * x1 (ix2 k q) := by
  unfold k2_pay1
  simp only [shapeCast_self]
  exact Cert.Lib.matmul_plain_zero_apply (M := 2000) (K := 128) (N := 64) none x0 x1 p q

/-- What point `t` writes back is block `t` of `h · W₂`. -/
theorem flushed_eq (c : Dev nD) (t : Fin cfg2.N) :
    (dat2 V c).flushed 2 t
      = ((cfg2.win 2).blk t).view.read (Elt Ideal) (Layers.project (M := 100000) (K := 128) (N := 64) (V c main_v45) (V c main_arg3)) := by
  show (cfg2.win 2).cut (grid2.coords t) ((dat2 V c).after 2 t) = _
  rw [after2_2]
  unfold out2_2
  rw [View.canon_unit_zero origin]
  simp only [View.ld_unit_zero (S := S2000x128) origin, View.ld_unit_zero (S := S128x64) origin]
  obtain ⟨e0, e1, e2, e3, e4, e5⟩ := block_index t
  funext j
  obtain ⟨p, q, rfl⟩ : ∃ (p : Fin 2000) (q : Fin 64), j = ix2 p q := ⟨j 0, j 1, eq_ix2 j⟩
  show k2_pay1 (iblk2 V c 0 t) (iblk2 V c 1 t) (ix2 p q)
    = Layers.project (M := 100000) (K := 128) (N := 64) (V c main_v45) (V c main_arg3) (((cfg2.win 2).blk t).view.emb (ix2 p q))
  refine (product_apply _ _ p q).trans ?_
  unfold Layers.project
  refine Finset.sum_congr rfl fun k _ => ?_
  have hx : iblk2 V c 0 t (ix2 p k) = V c main_v45 (ix2 ((((cfg2.win 2).blk t).view.emb (ix2 p q)) 0) k) := by
    show V c main_v45 (((cfg2.win 0).blk t).view.emb (ix2 p k)) = _
    refine congrArg (V c main_v45) (funext fun a => Fin.ext ?_)
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * k.val = k.val; omega
  have hw : iblk2 V c 1 t (ix2 k q) = V c main_arg3 (ix2 k ((((cfg2.win 2).blk t).view.emb (ix2 p q)) 1)) := by
    show V c main_arg3 (((cfg2.win 1).blk t).view.emb (ix2 k q)) = _
    refine congrArg (V c main_arg3) (funext fun a => Fin.ext ?_)
    match a with
    | ⟨0, _⟩ => show win2_1.index t (0 : Fin 2) * 128 + 1 * k.val = k.val; omega
    | ⟨1, _⟩ => show win2_1.index t (1 : Fin 2) * 64 + 1 * q.val = win2_2.index t (1 : Fin 2) * 64 + 1 * q.val; omega
  rw [hx, hw]

/-- An index of the result is in point `t`'s block iff each coordinate is in the block's range on its axis. -/
theorem mem_block (t : Fin cfg2.N) (i : S100000x64.Idx) :
    i ∈ ((cfg2.win 2).blk t).view.set
      ↔ ∀ a : Fin 2, win2_2.index t a * S2000x64.size a ≤ (i a).val ∧ (i a).val < win2_2.index t a * S2000x64.size a + S2000x64.size a := by
  show i ∈ ((View.whole main_v46).slice (win2_2.rect t)).set ↔ _
  rw [View.set_slice_whole, Rect.mem_set_unit]
  exact Iff.rfl

/-- Row `r` of the result lies in block `r / 2000`. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  let t : Fin cfg2.N := Fin.cast N_2.symm ⟨(i 0).val / 2000, by omega⟩
  have ht : t.val = (i 0).val / 2000 := rfl
  obtain ⟨e0, e1, e2, e3, e4, e5⟩ := block_index t
  refine ⟨t, flush2_2 t, ?_⟩
  rw [mem_block]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- The result array after the launch is `h · W₂` of the operand arrays as the launch found them. -/
theorem final (c : Dev nD) :
    (dat2 V c).arrAt 2 cfg2.N = Layers.project (M := 100000) (K := 128) (N := 64) (V c main_v45) (V c main_arg3) :=
  (dat2 V c).arrAt_eq_of_cover 2 _ (fun t _ => flushed_eq V c t) covered

end Cert.KernelIdeal.Layer2Project

end
-- ==== Proof.Layer2Bias.lean ====
/-
  The second layer's bias, `latent = agg + b₂`, as the array the fourth launch leaves.

  The launch walks the 100000 nodes in 50 blocks of 2000 rows.  At block `t` the body adds the bias row (a `[1, 64]` array, the
  same one block at every point, broadcast over the 2000 rows) to the block's rows of the aggregated messages; the block is
  written back to the same rows of the result.  Entry `(p, q)` of block `t` is `agg (2000 t + p, q) + b (0, q)`, and the 50 blocks
  tile the result, so the array ends holding `Layers.addRow agg b` of the two operand arrays as the launch found them (`V`).
-/
import proofs.«141682_j76553497084655_1_alg».proof.Proof.Gen.KernelIdeal.Frame
import proofs.«141682_j76553497084655_1_alg».proof.Proof.LibDenseLayers

set_option maxRecDepth 16384

noncomputable section

namespace Cert.KernelIdeal.Layer2Bias

open Cert.KernelIdeal Cert.KernelIdeal.Gen Idealize.ShloMosaic Idealize.ShloMosaic.TcCoe Idealize.SL.Sem
open Idealize.ShloMosaic.ValueIdx Idealize.ShloMosaic.Pipeline

variable (V : (c : Dev nD) → (b : Ref sig .tc) → Buf (Elt Ideal) ((c : Thread nD τ).loc b))

theorem origin : (![0, 0] : Fin 2 → Nat) = fun _ => 0 := funext fun a => by fin_cases a <;> rfl

/-- The block a point reads and writes: block `t` on the row axis for the messages and for the result, the one block of the
    bias row. -/
theorem block_index : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body's value at an entry: the block's entry plus the bias row's entry of that column. -/
theorem biased_apply (x0 : Vec Ideal S2000x64 .f32) (x1 : Vec Ideal S1x64 .f32) (p : Fin 2000) (q : Fin 64) :
    k3_pay1 x0 x1 (ix2 p q) = x0 (ix2 p q) + x1 (ix2 (0 : Fin 1) q) := by
  unfold k3_pay1
  simp only [shapeCast_self]
  show x0 (ix2 p q) + broadcastTo S2000x64 x1 broadcasts_S1x64_S2000x64 (ix2 p q) = _
  rw [broadcastTo_1b_ab_apply (a := 2000) (b := 64) x1 broadcasts_S1x64_S2000x64 p q]

/-- What point `t` writes back is block `t` of the biased messages. -/
theorem flushed_eq (c : Dev nD) (t : Fin cfg3.N) :
    (dat3 V c).flushed 2 t
      = ((cfg3.win 2).blk t).view.read (Elt Ideal) (Layers.addRow (M := 100000) (N := 64) (V c main_v59) (V c main_v60)) := by
  show (cfg3.win 2).cut (grid3.coords t) ((dat3 V c).after 2 t) = _
  rw [after3_2]
  unfold out3_2
  rw [View.canon_unit_zero origin]
  simp only [View.ld_unit_zero (S := S2000x64) origin, View.ld_unit_zero (S := S1x64) origin]
  obtain ⟨e0, e1, e2, e3, e4, e5⟩ := block_index t
  funext j
  obtain ⟨p, q, rfl⟩ : ∃ (p : Fin 2000) (q : Fin 64), j = ix2 p q := ⟨j 0, j 1, eq_ix2 j⟩
  show k3_pay1 (iblk3 V c 0 t) (iblk3 V c 1 t) (ix2 p q)
    = Layers.addRow (M := 100000) (N := 64) (V c main_v59) (V c main_v60) (((cfg3.win 2).blk t).view.emb (ix2 p q))
  refine (biased_apply _ _ p q).trans ?_
  unfold Layers.addRow
  have ha : iblk3 V c 0 t (ix2 p q) = V c main_v59 (((cfg3.win 2).blk t).view.emb (ix2 p q)) := by
    show V c main_v59 (((cfg3.win 0).blk t).view.emb (ix2 p q)) = _
    refine congrArg (V c main_v59) (funext fun a => Fin.ext ?_)
    match a with
    | ⟨0, _⟩ => show win3_0.index t (0 : Fin 2) * 2000 + 1 * p.val = win3_2.index t (0 : Fin 2) * 2000 + 1 * p.val; omega
    | ⟨1, _⟩ => show win3_0.index t (1 : Fin 2) * 64 + 1 * q.val = win3_2.index t (1 : Fin 2) * 64 + 1 * q.val; omega
  have hb : iblk3 V c 1 t (ix2 (0 : Fin 1) q) = V c main_v60 (ix2 (0 : Fin 1) ((((cfg3.win 2).blk t).view.emb (ix2 p q)) 1)) := by
    show V c main_v60 (((cfg3.win 1).blk t).view.emb (ix2 (0 : Fin 1) q)) = _
    refine congrArg (V c main_v60) (funext fun a => Fin.ext ?_)
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  rw [ha, hb]

/-- An index of the result is in point `t`'s block iff each coordinate is in the block's range on its axis. -/
theorem mem_block (t : Fin cfg3.N) (i : S100000x64.Idx) :
    i ∈ ((cfg3.win 2).blk t).view.set
      ↔ ∀ a : Fin 2, win3_2.index t a * S2000x64.size a ≤ (i a).val ∧ (i a).val < win3_2.index t a * S2000x64.size a + S2000x64.size a := by
  show i ∈ ((View.whole main_v61).slice (win3_2.rect t)).set ↔ _
  rw [View.set_slice_whole, Rect.mem_set_unit]
  exact Iff.rfl

/-- Row `r` of the result lies in block `r / 2000`. -/
theorem covered (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  let t : Fin cfg3.N := Fin.cast N_3.symm ⟨(i 0).val / 2000, by omega⟩
  have ht : t.val = (i 0).val / 2000 := rfl
  obtain ⟨e0, e1, e2, e3, e4, e5⟩ := block_index t
  refine ⟨t, flush3_2 t, ?_⟩
  rw [mem_block]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 64 ≤ (i 1).val ∧ (i 1).val < win3_2.index t (1 : Fin 2) * 64 + 64; omega

/-- The result array after the launch is the biased messages of the operand arrays as the launch found them. -/
theorem final (c : Dev nD) :
    (dat3 V c).arrAt 2 cfg3.N = Layers.addRow (M := 100000) (N := 64) (V c main_v59) (V c main_v60) :=
  (dat3 V c).arrAt_eq_of_cover 2 _ (fun t _ => flushed_eq V c t) covered

end Cert.KernelIdeal.Layer2Bias

end
-- ==== Proof.LibRowDots.lean ====
/-
  The edge scores as a column.  A launch that scores edges block by block leaves one number per edge in an `[E, 1]` column;
  read row-major that column is the vector of the scores, so reshaping it to `[E]` gives `Layers.rowDots`.
-/
import proofs.«141682_j76553497084655_1_alg».proof.Proof.LibDenseLayers

noncomputable section

namespace Cert.Layers

open Idealize.ShloMosaic Idealize.ShloMosaic.ValueIdx

variable {M K : Nat}

/-- Row by row, the dot product of `u`'s row with `v`'s, kept as a column. -/
def rowDotsCol (u v : (⟨2, ![M, K]⟩ : Shape).Idx → EReal) : (⟨2, ![M, 1]⟩ : Shape).Idx → EReal :=
  fun i => ∑ k : Fin K, u (ix2 (n0 := M) (i 0) k) * v (ix2 (n0 := M) (i 0) k)

/-- The column of scores reshaped to a vector is the vector of scores: entry `e` of the vector and entry `(e, 0)` of the
    column have the same row-major position. -/
theorem shapeCast_rowDotsCol (u v : (⟨2, ![M, K]⟩ : Shape).Idx → EReal)
    (h : (⟨2, ![M, 1]⟩ : Shape).ShapeCasts ⟨1, ![M]⟩) :
    shapeCast ⟨1, ![M]⟩ (rowDotsCol u v) h = rowDots u v := by
  funext i
  refine (shapeCast_apply (rowDotsCol u v) h i (ix2 (n0 := M) (i 0) (0 : Fin 1)) ?_).trans rfl
  rw [Shape.rowMajor_val_two, Shape.rowMajor_val_one]
  show (i 0).val * 1 + 0 = (i 0).val
  omega

end Cert.Layers

end
-- ==== Proof.LibKeepdims.lean ====
/-
  Two layout operations read at an index given by coordinates, for the column that a row-wise sum with kept
  dimensions produces: a vector `[a]` cast to the column `[a, 1]`, and a column `[a, 1]` broadcast over `b` lanes.
  They complete the row forms of the library's layout lemmas (a leading unit axis added, one row broadcast over many).
-/
import Idealize.ShloMosaic.Lib.ValueLayout

namespace Cert.LibKeepdims

open Idealize.ShloMosaic Idealize.ShloMosaic.ValueIdx

variable {α : Type}

/-- An `[a]` vector cast to the column `[a, 1]` reads, at `(i, u)`, the operand at `i`, whatever the unit coordinate `u`:
    both indices have the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row coordinate is kept
    (when `a = 1` it is `0` anyway) and the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.EdgeScores.lean ====
/-
  The decoder's edge scores as the array the last launch leaves.

  The launch walks the 400000 edges in 50 blocks of 8000.  At block `t` the body multiplies, entry by entry, the block's rows of
  the two gathered feature arrays (the features of each edge's two end points), sums each row over its 64 features starting
  from zero, and stores the 8000 sums as a column; the block is written back to rows `8000 t … 8000 t + 7999` of the `[400000, 1]`
  result.  Entry `(p, 0)` of block `t` is `∑ k, u (8000 t + p, k) · v (8000 t + p, k)`, and the 50 blocks tile the column, so the array
  ends holding `Layers.rowDotsCol u v` of the two operand arrays as the launch found them (`V`).
-/
import proofs.«141682_j76553497084655_1_alg».proof.Proof.Gen.KernelIdeal.Frame
import proofs.«141682_j76553497084655_1_alg».proof.Proof.LibRowDots
import proofs.«141682_j76553497084655_1_alg».proof.Proof.LibKeepdims

set_option maxRecDepth 16384

noncomputable section

namespace Cert.KernelIdeal.EdgeScores

open Cert.KernelIdeal Cert.KernelIdeal.Gen Idealize.ShloMosaic Idealize.ShloMosaic.TcCoe Idealize.SL.Sem
open Idealize.ShloMosaic.ValueIdx Idealize.ShloMosaic.Pipeline

variable (V : (c : Dev nD) → (b : Ref sig .tc) → Buf (Elt Ideal) ((c : Thread nD τ).loc b))

theorem origin : (![0, 0] : Fin 2 → Nat) = fun _ => 0 := funext fun a => by fin_cases a <;> rfl

/-- The block of edges a point reads and writes: block `t` on the edge axis for both operands and for the result. -/
theorem block_index : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- A sum over the feature axis, from zero, read at a row: the sum of the row's 64 entries. -/
theorem lane_sum (src : FVec Ideal S8000x64 .f32) (h : S8000x64.Reduces [1] S8000) (hφ : FKind.Formats .f32)
    (hacc : (0x00000000#32 : BitVec 32) = FKind.add.neutral .f32 hφ) (p : Fin 8000) :
    multiReduction .add [1] S8000 src 0x00000000#32 h hφ hacc (ix1 p) = ∑ k : Fin 64, src (ix2 p k) := by
  simp only [multiReduction, Ideal.reduceAdd_def]
  rw [Ideal.reduceAdd_single h src (ix1 p)]
  refine Finset.sum_congr rfl fun k _ => ?_
  exact congrArg src (funext fun a => Fin.ext (by match a with | ⟨0, _⟩ => rfl | ⟨1, _⟩ => rfl))

/-- The body's value at an entry of the column: the sum over the features of the two rows' products, from zero. -/
theorem score_apply (x0 x1 : Vec Ideal S8000x64 .f32) (p : Fin 8000) (u : Fin 1) :
    k4_pay1 x0 x1 (ix2 p u) = ∑ k : Fin 64, x0 (ix2 p k) * x1 (ix2 p k) := by
  unfold k4_pay1
  simp only [shapeCast_self]
  refine (Cert.LibKeepdims.shapeCast_a_a1_apply (a := 8000) _ shapeCasts_S8000_S8000x1 p u).trans ?_
  exact lane_sum (mulf x0 x1) _ _ _ p

/-- What point `t` writes back is block `t` of the column of edge scores. -/
theorem flushed_eq (c : Dev nD) (t : Fin cfg4.N) :
    (dat4 V c).flushed 2 t
      = ((cfg4.win 2).blk t).view.read (Elt Ideal) (Layers.rowDotsCol (M := 400000) (K := 64) (V c main_v71) (V c main_v80)) := by
  show (cfg4.win 2).cut (grid4.coords t) ((dat4 V c).after 2 t) = _
  rw [after4_2]
  unfold out4_2
  rw [View.canon_unit_zero origin]
  simp only [View.ld_unit_zero (S := S8000x64) origin]
  obtain ⟨e0, e1, e2, e3, e4, e5⟩ := block_index t
  funext j
  obtain ⟨p, u, rfl⟩ : ∃ (p : Fin 8000) (u : Fin 1), j = ix2 p u := ⟨j 0, j 1, eq_ix2 j⟩
  show k4_pay1 (iblk4 V c 0 t) (iblk4 V c 1 t) (ix2 p u)
    = Layers.rowDotsCol (M := 400000) (K := 64) (V c main_v71) (V c main_v80) (((cfg4.win 2).blk t).view.emb (ix2 p u))
  refine (score_apply _ _ p u).trans ?_
  unfold Layers.rowDotsCol
  refine Finset.sum_congr rfl fun k _ => ?_
  have hu : iblk4 V c 0 t (ix2 p k) = V c main_v71 (ix2 ((((cfg4.win 2).blk t).view.emb (ix2 p u)) 0) k) := by
    show V c main_v71 (((cfg4.win 0).blk t).view.emb (ix2 p k)) = _
    refine congrArg (V c main_v71) (funext fun a => Fin.ext ?_)
    match a with
    | ⟨0, _⟩ => show win4_0.index t (0 : Fin 2) * 8000 + 1 * p.val = win4_2.index t (0 : Fin 2) * 8000 + 1 * p.val; omega
    | ⟨1, _⟩ => show win4_0.index t (1 : Fin 2) * 64 + 1 * k.val = k.val; omega
  have hv : iblk4 V c 1 t (ix2 p k) = V c main_v80 (ix2 ((((cfg4.win 2).blk t).view.emb (ix2 p u)) 0) k) := by
    show V c main_v80 (((cfg4.win 1).blk t).view.emb (ix2 p k)) = _
    refine congrArg (V c main_v80) (funext fun a => Fin.ext ?_)
    match a with
    | ⟨0, _⟩ => show win4_1.index t (0 : Fin 2) * 8000 + 1 * p.val = win4_2.index t (0 : Fin 2) * 8000 + 1 * p.val; omega
    | ⟨1, _⟩ => show win4_1.index t (1 : Fin 2) * 64 + 1 * k.val = k.val; omega
  rw [hu, hv]

/-- An index of the column is in point `t`'s block iff each coordinate is in the block's range on its axis. -/
theorem mem_block (t : Fin cfg4.N) (i : S400000x1.Idx) :
    i ∈ ((cfg4.win 2).blk t).view.set
      ↔ ∀ a : Fin 2, win4_2.index t a * S8000x1.size a ≤ (i a).val ∧ (i a).val < win4_2.index t a * S8000x1.size a + S8000x1.size a := by
  show i ∈ ((View.whole main_v81).slice (win4_2.rect t)).set ↔ _
  rw [View.set_slice_whole, Rect.mem_set_unit]
  exact Iff.rfl

/-- Edge `e` lies in block `e / 8000`. -/
theorem covered (i : S400000x1.Idx) :
    ∃ t : Fin cfg4.N, (cfg4.win 2).flush t = true ∧ i ∈ ((cfg4.win 2).blk t).view.set := by
  have hi0 : (i 0).val < 400000 := (i 0).isLt
  have hi1 : (i 1).val < 1 := (i 1).isLt
  let t : Fin cfg4.N := Fin.cast N_4.symm ⟨(i 0).val / 8000, by omega⟩
  have ht : t.val = (i 0).val / 8000 := rfl
  obtain ⟨e0, e1, e2, e3, e4, e5⟩ := block_index t
  refine ⟨t, flush4_2 t, ?_⟩
  rw [mem_block]
  intro a
  match a with
  | ⟨0, _⟩ => show win4_2.index t (0 : Fin 2) * 8000 ≤ (i 0).val ∧ (i 0).val < win4_2.index t (0 : Fin 2) * 8000 + 8000; omega
  | ⟨1, _⟩ => show win4_2.index t (1 : Fin 2) * 1 ≤ (i 1).val ∧ (i 1).val < win4_2.index t (1 : Fin 2) * 1 + 1; omega

/-- The result column after the launch is the edge scores of the operand arrays as the launch found them. -/
theorem final (c : Dev nD) :
    (dat4 V c).arrAt 2 cfg4.N = Layers.rowDotsCol (M := 400000) (K := 64) (V c main_v71) (V c main_v80) :=
  (dat4 V c).arrAt_eq_of_cover 2 _ (fun t _ => flushed_eq V c t) covered

end Cert.KernelIdeal.EdgeScores

end
-- ==== Proof.RefLayers.lean ====
/-
  The reference's dense stages are the layers of `Layers`.

  The reference is one straight line of host operations; read back one operation at a time, its projection stages are
  `dot_general`s with ordinary matrix-product dimension numbers, its bias stages add a bias vector broadcast first to a row and
  then over all nodes (the first followed by a `maximum` with a broadcast zero), and its last stage sums, over the feature axis
  and from zero, the elementwise product of the two gathered feature arrays.  Each is the corresponding function of `Layers`
  applied to the stage before it.
-/
import proofs.«141682_j76553497084655_1_alg».proof.Proof.RefReadP
import proofs.«141682_j76553497084655_1_alg».proof.Proof.LibDenseLayers
import proofs.«141682_j76553497084655_1_alg».proof.Proof.LibRowDots

noncomputable section

namespace Cert.ReferenceIdeal.RefLayers

open Cert.ReferenceIdeal Cert.ReferenceIdeal.Gen Cert.ReferenceIdeal.ReadP Idealize.ShloMosaic Idealize.ShloMosaic.ValueIdx

variable (x0 : (⟨S100000x128, .f32⟩ : BufTy).Contents (Elt Ideal)) (x1 : (⟨S128x128, .f32⟩ : BufTy).Contents (Elt Ideal))
  (x2 : (⟨S128, .f32⟩ : BufTy).Contents (Elt Ideal)) (x3 : (⟨S128x64, .f32⟩ : BufTy).Contents (Elt Ideal))
  (x4 : (⟨S64, .f32⟩ : BufTy).Contents (Elt Ideal)) (x5 : (⟨S2x1600000, .i32⟩ : BufTy).Contents (Elt Ideal))
  (x6 x7 : (⟨S2x200000, .i32⟩ : BufTy).Contents (Elt Ideal))

/-- The first projection stage is `x · W₁`. -/
theorem project1 : val_main_v30 (F := Ideal) x0 x1 = Layers.project (M := 100000) (K := 128) (N := 128) x0 x1 := by
  unfold val_main_v30
  exact Layers.dotGeneral_eq_project _ rfl none x0 x1

/-- The first layer's output stage is the aggregated messages plus the bias row, clamped at zero. -/
theorem clamp1 (hc : (⟨1, ![128]⟩ : Shape).ShapeCasts ⟨2, ![1, 128]⟩) :
    val_main_v47 (F := Ideal) x0 x1 x2 x5
      = Layers.addRowClamp (M := 100000) (N := 128) (val_main_v43 (F := Ideal) x0 x1 x5) (shapeCast ⟨2, ![1, 128]⟩ x2 hc) := by
  unfold val_main_v47 val_main_v46 val_main_v45 val_main_v44 val_main_call1_v0 val_main_call1_cst
  exact Layers.maximumf_bias_eq_addRowClamp (M := 100000) (N := 128) _ x2 _ _ _ hc

/-- The second projection stage is `h · W₂`. -/
theorem project2 :
    val_main_v48 (F := Ideal) x0 x1 x2 x3 x5
      = Layers.project (M := 100000) (K := 128) (N := 64) (val_main_v47 (F := Ideal) x0 x1 x2 x5) x3 := by
  unfold val_main_v48
  exact Layers.dotGeneral_eq_project _ rfl none _ x3

/-- The latent features are the second layer's aggregated messages plus its bias row. -/
theorem bias2 (hc : (⟨1, ![64]⟩ : Shape).ShapeCasts ⟨2, ![1, 64]⟩) :
    val_main_v64 (F := Ideal) x0 x1 x2 x3 x4 x5
      = Layers.addRow (M := 100000) (N := 64) (val_main_v61 (F := Ideal) x0 x1 x2 x3 x5) (shapeCast ⟨2, ![1, 64]⟩ x4 hc) := by
  unfold val_main_v64 val_main_v63 val_main_v62
  exact Layers.addf_bias_eq_addRow (M := 100000) (N := 64) _ x4 _ _ hc

/-- The result is, edge by edge, the dot product of the two end points' latent features. -/
theorem scores :
    val_main_v85 (F := Ideal) x0 x1 x2 x3 x4 x5 x6 x7
      = Layers.rowDots (M := 400000) (K := 64) (val_main_v74 (F := Ideal) x0 x1 x2 x3 x4 x5 x6 x7)
          (val_main_v83 (F := Ideal) x0 x1 x2 x3 x4 x5 x6 x7) := by
  funext i
  obtain ⟨e, rfl⟩ : ∃ e : Fin 400000, i = ix1 e := ⟨i 0, eq_ix1 i⟩
  rw [val_main_v85_apply]
  unfold Layers.rowDots
  show Ideal.ofBits .f32 0x00000000#32 + _ = _
  rw [Ideal.ofBits_zero_f32, zero_add]
  refine Finset.sum_congr rfl fun k _ => ?_
  have hidx : idx_main_v85 (ix1 e) k = ix2 e k :=
    funext fun a => by match a with | ⟨0, _⟩ => rfl | ⟨1, _⟩ => rfl
  rw [val_main_v84_apply, hidx]
  rfl

end Cert.ReferenceIdeal.RefLayers

end
-- ==== Proof.KernelStages.lean ====
/-
  The kernel's result, boundary by boundary.

  The program alternates host stretches and launches.  Walking the boundaries in order, each array a later segment reads is
  identified with the matching stage of the reference computation (its stages named `val_main_v…`, each a function of the
  argument arrays): the index arithmetic, the degree normalisation, the gathers and the scatter-adds are the same host operations
  on both sides, so those stages agree by unfolding; and each launch's result is the dense layer of `Layers` that the reference
  computes with host operations (`RefLayers`): the two projections, the two bias additions (the first clamped at zero) and the
  edge scores.  The last boundary's result buffer is therefore the reference's last stage of the same arguments.
-/
import proofs.«141682_j76553497084655_1_alg».proof.Proof.Gen.KernelIdeal.Frame
import proofs.«141682_j76553497084655_1_alg».proof.Proof.Layer1Project
import proofs.«141682_j76553497084655_1_alg».proof.Proof.Layer1Bias
import proofs.«141682_j76553497084655_1_alg».proof.Proof.Layer2Project
import proofs.«141682_j76553497084655_1_alg».proof.Proof.Layer2Bias
import proofs.«141682_j76553497084655_1_alg».proof.Proof.EdgeScores
import proofs.«141682_j76553497084655_1_alg».proof.Proof.RefLayers

set_option maxRecDepth 16384

noncomputable section

namespace Cert.KernelIdeal.Stages

open Cert.KernelIdeal Cert.KernelIdeal.Gen Idealize.ShloMosaic Idealize.ShloMosaic.TcCoe Idealize.SL.Sem
open Idealize.ShloMosaic.StableHlo
open Cert.ReferenceIdeal.ReadP

/-! ## Two arrays joined end to end

A join's operands sit inside a list of (shape, array) pairs, where rewriting does not reach; named as a function of its two
operands, the join lets each operand be read back on its own. -/

/-- The edge list's end points followed by the self-loops' (a join along the one axis). -/
def withLoops {α : Type} (a : S1600000.Idx → α) (b : S100000.Idx → α) : S1700000.Idx → α :=
  concatenate S1700000 0 [⟨S1600000, a⟩, ⟨S100000, b⟩] concatenates_S1600000_S100000_S1700000_d0
theorem withLoops_def {α : Type} (a : S1600000.Idx → α) (b : S100000.Idx → α) :
    concatenate S1700000 0 [⟨S1600000, a⟩, ⟨S100000, b⟩] concatenates_S1600000_S100000_S1700000_d0 = withLoops a b := rfl

/-- The two sets of edges to score, side by side (a join along the edge axis). -/
def bothEdgeSets {α : Type} (a b : S2x200000.Idx → α) : S2x400000.Idx → α :=
  concatenate S2x400000 1 [⟨S2x200000, a⟩, ⟨S2x200000, b⟩] concatenates_S2x200000_S2x200000_S2x400000_d1
theorem bothEdgeSets_def {α : Type} (a b : S2x200000.Idx → α) :
    concatenate S2x400000 1 [⟨S2x200000, a⟩, ⟨S2x200000, b⟩] concatenates_S2x200000_S2x200000_S2x400000_d1 = bothEdgeSets a b := rfl

/-! ## Before the first launch: the edge end points and the normalisation's inverse square roots

These are read at any float instance: nothing here looks inside a float operation, and the typed references of the outlined
`where` are seen through while the float operations stay opaque. -/

section AnyFloats

variable {F : FTy → Type} [FloatOps F] (m : (ℓ : Loc nD τ sig) → Buf (Elt F) ℓ) (ρ : Dev nD → PrngReg) (c : Dev nD)

/-- Reads a buffer, as the first launch finds it, back to the launch memory. -/
macro "launch_eval" : tactic =>
  `(tactic| simp (disch := decide) only [W3, W2, W1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', withLoops_def])

set_option maxHeartbeats 4000000 in
/-- The source end points, self-loops appended. -/
theorem src_eq : W3 m ρ c (Proc.devRef .tc main_v3) = val_main_v3 (F := F) (m ((c : Thread nD τ).loc main_arg5)) := by
  launch_eval <;> rfl

set_option maxHeartbeats 4000000 in
/-- The target end points, self-loops appended. -/
theorem dst_eq : W3 m ρ c (Proc.devRef .tc main_v6) = val_main_v6 (F := F) (m ((c : Thread nD τ).loc main_arg5)) := by
  launch_eval <;> rfl

set_option maxHeartbeats 40000000 in
/-- The edge weights: the product of the two end points' inverse square-root degrees (zero where a degree is not positive). -/
theorem norm_eq : W3 m ρ c (Proc.devRef .tc main_v29) = val_main_v29 (F := F) (m ((c : Thread nD τ).loc main_arg5)) := by
  launch_eval <;> rfl

set_option maxHeartbeats 4000000 in
theorem arg0_eq : W3 m ρ c (Proc.devRef .tc main_arg0) = (m ((c : Thread nD τ).loc main_arg0)) := by
  launch_eval <;> rfl
set_option maxHeartbeats 4000000 in
theorem arg1_eq : W3 m ρ c (Proc.devRef .tc main_arg1) = (m ((c : Thread nD τ).loc main_arg1)) := by
  launch_eval <;> rfl
set_option maxHeartbeats 4000000 in
theorem arg2_eq : W3 m ρ c (Proc.devRef .tc main_arg2) = (m ((c : Thread nD τ).loc main_arg2)) := by
  launch_eval <;> rfl
set_option maxHeartbeats 4000000 in
theorem arg3_eq : W3 m ρ c (Proc.devRef .tc main_arg3) = (m ((c : Thread nD τ).loc main_arg3)) := by
  launch_eval <;> rfl
set_option maxHeartbeats 4000000 in
theorem arg4_eq : W3 m ρ c (Proc.devRef .tc main_arg4) = (m ((c : Thread nD τ).loc main_arg4)) := by
  launch_eval <;> rfl
set_option maxHeartbeats 4000000 in
theorem arg6_eq : W3 m ρ c (Proc.devRef .tc main_arg6) = (m ((c : Thread nD τ).loc main_arg6)) := by
  launch_eval <;> rfl
set_option maxHeartbeats 4000000 in
theorem arg7_eq : W3 m ρ c (Proc.devRef .tc main_arg7) = (m ((c : Thread nD τ).loc main_arg7)) := by
  launch_eval <;> rfl

end AnyFloats

variable (m : (ℓ : Loc nD τ sig) → Buf (Elt Ideal) ℓ) (ρ : Dev nD → PrngReg) (c : Dev nD)

/-! ## A launch keeps every buffer but its own arrays -/

/-- A buffer as the first launch finds it. -/
def pre (b : Ref sig .tc) : Buf (Elt Ideal) ((c : Thread nD τ).loc b) := W3 m ρ c (Proc.devRef .tc b)

theorem pre_src : pre m ρ c main_v3 = val_main_v3 (F := Ideal) (m ((c : Thread nD τ).loc main_arg5)) := src_eq m ρ c
theorem pre_dst : pre m ρ c main_v6 = val_main_v6 (F := Ideal) (m ((c : Thread nD τ).loc main_arg5)) := dst_eq m ρ c
theorem pre_norm : pre m ρ c main_v29 = val_main_v29 (F := Ideal) (m ((c : Thread nD τ).loc main_arg5)) := norm_eq m ρ c
theorem pre_arg0 : pre m ρ c main_arg0 = (m ((c : Thread nD τ).loc main_arg0)) := arg0_eq m ρ c
theorem pre_arg1 : pre m ρ c main_arg1 = (m ((c : Thread nD τ).loc main_arg1)) := arg1_eq m ρ c
theorem pre_arg2 : pre m ρ c main_arg2 = (m ((c : Thread nD τ).loc main_arg2)) := arg2_eq m ρ c
theorem pre_arg3 : pre m ρ c main_arg3 = (m ((c : Thread nD τ).loc main_arg3)) := arg3_eq m ρ c
theorem pre_arg4 : pre m ρ c main_arg4 = (m ((c : Thread nD τ).loc main_arg4)) := arg4_eq m ρ c
theorem pre_arg6 : pre m ρ c main_arg6 = (m ((c : Thread nD τ).loc main_arg6)) := arg6_eq m ρ c
theorem pre_arg7 : pre m ρ c main_arg7 = (m ((c : Thread nD τ).loc main_arg7)) := arg7_eq m ρ c

theorem keep0 (b : Ref sig .tc) (hb : ∀ w, Pipeline.arrRef spec0 w ≠ b) :
    W4 m ρ c (no_index (Proc.devRef .tc b)) = pre m ρ c b := W4_of_ne m ρ c b hb
theorem keep1 (b : Ref sig .tc) (hb : ∀ w, Pipeline.arrRef spec1 w ≠ b) :
    W6 m ρ c (no_index (Proc.devRef .tc b)) = W5 m ρ c (Proc.devRef .tc b) := W6_of_ne m ρ c b hb
theorem keep2 (b : Ref sig .tc) (hb : ∀ w, Pipeline.arrRef spec2 w ≠ b) :
    W7 m ρ c (no_index (Proc.devRef .tc b)) = W6 m ρ c (Proc.devRef .tc b) := W7_of_ne m ρ c b hb
theorem keep3 (b : Ref sig .tc) (hb : ∀ w, Pipeline.arrRef spec3 w ≠ b) :
    W9 m ρ c (no_index (Proc.devRef .tc b)) = W8 m ρ c (Proc.devRef .tc b) := W9_of_ne m ρ c b hb
theorem keep4 (b : Ref sig .tc) (hb : ∀ w, Pipeline.arrRef spec4 w ≠ b) :
    W11 m ρ c (no_index (Proc.devRef .tc b)) = W10 m ρ c (Proc.devRef .tc b) := W11_of_ne m ρ c b hb

/-- Reads a buffer at a boundary back through the host stretches (each operation's result at its own buffer, any other
    buffer as it was) and through the launches (every buffer but a launch's own arrays as it was), down to the contents
    the first launch finds, which are the reference's stages named above. -/
macro "host_eval" : tactic =>
  `(tactic| simp (disch := decide) only [W12, W10, W8, W5, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      keep0, keep1, keep2, keep3, keep4, withLoops_def, bothEdgeSets_def,
      pre_src, pre_dst, pre_norm, pre_arg0, pre_arg1, pre_arg2, pre_arg3, pre_arg4, pre_arg6, pre_arg7])

/-! ## The first layer -/

theorem in0_x : W3 m ρ c (Proc.devRef .tc main_arg0) = (m ((c : Thread nD τ).loc main_arg0)) := arg0_eq m ρ c
theorem in0_w : W3 m ρ c (Proc.devRef .tc main_arg1) = (m ((c : Thread nD τ).loc main_arg1)) := arg1_eq m ρ c

/-- The first launch leaves `x · W₁`. -/
theorem out0 : W4 m ρ c (Proc.devRef .tc main_v30) = val_main_v30 (F := Ideal) (m ((c : Thread nD τ).loc main_arg0)) (m ((c : Thread nD τ).loc main_arg1)) := by
  rw [Cert.ReferenceIdeal.RefLayers.project1]
  refine (W4_arr m ρ c 2).trans ?_
  refine (Layer1Project.final (V3 m ρ) c).trans ?_
  show Layers.project (W3 m ρ c (Proc.devRef .tc main_arg0)) (W3 m ρ c (Proc.devRef .tc main_arg1)) = _
  rw [in0_x, in0_w]

set_option maxHeartbeats 40000000 in
/-- The messages aggregated over the edges, as the second launch finds them. -/
theorem in1_a : W5 m ρ c (Proc.devRef .tc main_v43) = val_main_v43 (F := Ideal) (m ((c : Thread nD τ).loc main_arg0)) (m ((c : Thread nD τ).loc main_arg1)) (m ((c : Thread nD τ).loc main_arg5)) := by
  host_eval
  rw [out0 m ρ c]
  rfl

set_option maxHeartbeats 4000000 in
/-- The first bias vector as a row. -/
theorem in1_b : W5 m ρ c (Proc.devRef .tc main_v44) = shapeCast S1x128 (m ((c : Thread nD τ).loc main_arg2)) shapeCasts_S128_S1x128 := by
  host_eval <;> rfl

/-- The second launch leaves the first layer's output. -/
theorem out1 : W6 m ρ c (Proc.devRef .tc main_v45) = val_main_v47 (F := Ideal) (m ((c : Thread nD τ).loc main_arg0)) (m ((c : Thread nD τ).loc main_arg1)) (m ((c : Thread nD τ).loc main_arg2)) (m ((c : Thread nD τ).loc main_arg5)) := by
  rw [Cert.ReferenceIdeal.RefLayers.clamp1 _ _ _ _ shapeCasts_S128_S1x128]
  refine (W6_arr m ρ c 2).trans ?_
  refine (Layer1Bias.final (V5 m ρ) c).trans ?_
  show Layers.addRowClamp (W5 m ρ c (Proc.devRef .tc main_v43)) (W5 m ρ c (Proc.devRef .tc main_v44)) = _
  rw [in1_a, in1_b]

/-! ## The second layer -/

set_option maxHeartbeats 4000000 in
theorem in2_w : W6 m ρ c (Proc.devRef .tc main_arg3) = (m ((c : Thread nD τ).loc main_arg3)) := by
  host_eval <;> rfl

/-- The third launch leaves `h · W₂`. -/
theorem out2 : W7 m ρ c (Proc.devRef .tc main_v46) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  rw [Cert.ReferenceIdeal.RefLayers.project2]
  refine (W7_arr m ρ c 2).trans ?_
  refine (Layer2Project.final (V6 m ρ) c).trans ?_
  show Layers.project (W6 m ρ c (Proc.devRef .tc main_v45)) (W6 m ρ c (Proc.devRef .tc main_arg3)) = _
  rw [out1, in2_w]

set_option maxHeartbeats 40000000 in
theorem in3_a : W8 m ρ c (Proc.devRef .tc main_v59) = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  host_eval
  rw [out2 m ρ c]
  rfl

set_option maxHeartbeats 4000000 in
theorem in3_b : W8 m ρ c (Proc.devRef .tc main_v60) = shapeCast S1x64 (m ((c : Thread nD τ).loc main_arg4)) shapeCasts_S64_S1x64 := by
  host_eval <;> rfl

/-- The fourth launch leaves the latent features. -/
theorem out3 : W9 m ρ c (Proc.devRef .tc main_v61) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [Cert.ReferenceIdeal.RefLayers.bias2 _ _ _ _ _ _ shapeCasts_S64_S1x64]
  refine (W9_arr m ρ c 2).trans ?_
  refine (Layer2Bias.final (V8 m ρ) c).trans ?_
  show Layers.addRow (W8 m ρ c (Proc.devRef .tc main_v59)) (W8 m ρ c (Proc.devRef .tc main_v60)) = _
  rw [in3_a, in3_b]

/-! ## The decoder -/

set_option maxHeartbeats 40000000 in
theorem in4_u : W10 m ρ c (Proc.devRef .tc main_v71) = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  host_eval
  rw [out3 m ρ c]
  rfl

set_option maxHeartbeats 40000000 in
theorem in4_v : W10 m ρ c (Proc.devRef .tc main_v80) = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  host_eval
  rw [out3 m ρ c]
  rfl

/-- The last launch leaves the column of edge scores. -/
theorem out4 : W11 m ρ c (Proc.devRef .tc main_v81)
    = Layers.rowDotsCol (M := 400000) (K := 64) (val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
        (val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W11_arr m ρ c 2).trans ?_
  refine (EdgeScores.final (V10 m ρ) c).trans ?_
  show Layers.rowDotsCol (W10 m ρ c (Proc.devRef .tc main_v71)) (W10 m ρ c (Proc.devRef .tc main_v80)) = _
  rw [in4_u, in4_v]

set_option maxHeartbeats 4000000 in
/-- The program's result is the reference's last stage of the same arguments. -/
theorem result : W12 m ρ c (Proc.devRef .tc main_v82) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Cert.ReferenceIdeal.RefLayers.scores]
  host_eval
  rw [out4 m ρ c]
  exact Layers.shapeCast_rowDotsCol _ _ _

end Cert.KernelIdeal.Stages

end
-- ==== Proof.lean ====
/-
  A two-layer graph-convolution encoder with an edge dot-product decoder, computed with five tiled launches among host
  operations, against the same computation written with host operations only.

  Over the extended reals the two programs compute the same function of the arguments.  Everything irregular — the self-loops
  appended to the edge list, the degrees and their inverse square roots, the gathers of feature rows along edges, the
  scatter-adds of messages into nodes — is done by the same host operations in both, applied to the same intermediate arrays.
  The five launches replace the reference's dense stages: two feature projections `x · W` (a block of 2000 rows times the whole
  weight matrix at a time, the operands first rounded to a narrower format, which changes nothing over the extended reals, and
  the accumulator starting at zero), two bias additions (the bias row broadcast over a block of rows; the first followed by the
  clamp at zero), and the per-edge dot products (a block of 8000 edges at a time).  Block by block these are the very sums and
  products of the reference's `dot_general`, broadcast additions and feature-axis sum, and the blocks tile the arrays; no
  law of arithmetic beyond `0 + s = s` is used, so the precondition on the inputs is never opened.

  The modules: `LibDenseLayers` (the dense stages as functions, namespace `Layers`, and that the host's operations are these
  functions), `LibRowDots`,
  `Layer1Project` … `EdgeScores` (what each launch leaves in its result array), `KernelRun` (the kernel's run with its result
  named), `RefLayers` (the reference's stages are the layers), `KernelStages` (the kernel's buffers, boundary by boundary,
  are the reference's stages).  The frames of the two kernel programs are the generated ones; the reference's frame is its run
  with the result dropped.  The idealization rewrote nothing, so `preserves` is trivial.
-/
import proofs.«141682_j76553497084655_1_alg».proof.Defs
import proofs.«141682_j76553497084655_1_alg».proof.Proof.Gen.Kernel
import proofs.«141682_j76553497084655_1_alg».proof.Proof.Gen.Kernel.Skeleton
import proofs.«141682_j76553497084655_1_alg».proof.Proof.Gen.Kernel.Launch
import proofs.«141682_j76553497084655_1_alg».proof.Proof.Gen.Kernel.Points
import proofs.«141682_j76553497084655_1_alg».proof.Proof.Gen.Kernel.Frame
import proofs.«141682_j76553497084655_1_alg».proof.Proof.Gen.KernelIdeal
import proofs.«141682_j76553497084655_1_alg».proof.Proof.Gen.KernelIdeal.Skeleton
import proofs.«141682_j76553497084655_1_alg».proof.Proof.Gen.KernelIdeal.Launch
import proofs.«141682_j76553497084655_1_alg».proof.Proof.Gen.KernelIdeal.Points
import proofs.«141682_j76553497084655_1_alg».proof.Proof.Gen.KernelIdeal.Frame
import proofs.«141682_j76553497084655_1_alg».proof.Proof.Gen.ReferenceIdeal
import proofs.«141682_j76553497084655_1_alg».proof.Proof.Gen.Pre_finite_inputs
import proofs.«141682_j76553497084655_1_alg».proof.Proof.RefRunP
import proofs.«141682_j76553497084655_1_alg».proof.Proof.RefReadP
import proofs.«141682_j76553497084655_1_alg».proof.Proof.KernelRun
import proofs.«141682_j76553497084655_1_alg».proof.Proof.KernelStages
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the reference's last stage of the (agreeing) arguments in their result buffers. -/
theorem algebraic : Cert.algebraic_KernelIdeal_ReferenceIdeal := by
  intro m ρ m' ρ' _ hagree
  refine ⟨fun c => Cert.ReferenceIdeal.ReadP.val_main_v85 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Stages.result m ρ c), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5, a6, a7⟩ := hagree c
    rw [Cert.ReferenceIdeal.ReadP.val_main_v85_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
